-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S32x128x1024 : Shape := ⟨3, ![32, 128, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S32x128x1024 : S_.BroadcastsInDim S32x128x1024 (![] : Fin 0 → Fin S32x128x1024.rank)
  reducesTo_S32x128x1024_S_d0_1_2 : S32x128x1024.ReducesTo [0, 1, 2] S_

variable [Facts]

def fn {F : FTy → Type} [FloatOps F] (main_arg0 : FVec F S8192x1024 .f32) (main_arg1 : FVec F S32x128x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S32x128x1024 .f32 := Host.absf main_arg1
  let main_cst_0 : FVec F S_ .f32 := constant S_ .f32 0x7F800000#32
  let main_v5 : FVec F S32x128x1024 .f32 := broadcastInDim S32x128x1024 ![] bcast_S_S32x128x1024 main_cst_0
  let main_v6 : IVec S32x128x1024 1 := cmpf .olt main_v4 main_v5
  let main_c_1 : IVec S_ 1 := constantI S_ 1 1#1
  let main_v7 : IVec S_ 1 := (fun x v => Host.reduce IntOp.andi x v reducesTo_S32x128x1024_S_d0_1_2 h_S_) main_v6 main_c_1
  let main_v8 : IVec S_ 1 := andi main_v3 main_v7
  main_v8
-- ==== Kernel.lean ====
abbrev S8192x1024 : Shape := ⟨2, ![8192, 1024]⟩
abbrev S32x128x1024 : Shape := ⟨3, ![32, 128, 1024]⟩
abbrev S4096x1024 : Shape := ⟨2, ![4096, 1024]⟩
abbrev S4096 : Shape := ⟨1, ![4096]⟩
abbrev S256x1024 : Shape := ⟨2, ![256, 1024]⟩
abbrev S256 : Shape := ⟨1, ![256]⟩
abbrev S1x256 : Shape := ⟨2, ![1, 256]⟩
abbrev S512x1024 : Shape := ⟨2, ![512, 1024]⟩
abbrev S512x256 : Shape := ⟨2, ![512, 256]⟩
abbrev S_ : Shape := ⟨0, ![]⟩

abbrev nBuf : Space → Nat
  | .hbm => 10
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S32x128x1024, .f32⟩
  | .hbm, ⟨2, _⟩ => ⟨S8192x1024, .bf16⟩
  | .hbm, ⟨3, _⟩ => ⟨S32x128x1024, .bf16⟩
  | .hbm, ⟨4, _⟩ => ⟨S4096x1024, .bf16⟩
  | .hbm, ⟨5, _⟩ => ⟨S4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S8192x1024, .bf16⟩
  | .local _ .vmem, ⟨1, _⟩ => ⟨S256x1024, .bf16⟩
  | .local _ .vmem, ⟨2, _⟩ => ⟨S256x1024, .bf16⟩
  | .local _ .vmem, ⟨3, _⟩ => ⟨S256, .f32⟩
  | .local _ .vmem, ⟨4, _⟩ => ⟨S256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v3 : BitVec 32 := Scalar.addi c0_i32 c16_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c512_i32 : BitVec 32 := 512#32
  let v64 : BitVec 32 := Scalar.muli arg4 c512_i32
  v64
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c512_i32 : BitVec 32 := 512#32
  let v64 : BitVec 32 := Scalar.muli arg4 c512_i32
  let v65 : BitVec 32 := v64
  let v66 : Index := Scalar.indexCast v65
  let c0_17 : Index := 0#32
  ![v66.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  shapeCasts_S32x128x1024_S4096x1024 : S32x128x1024.ShapeCasts S4096x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  h_S512x1024 : 0 < S512x1024.numel
  shapeCasts_S512x1024_S512x1024 : S512x1024.ShapeCasts S512x1024
  reduces_S512x256_S256 : S512x256.Reduces [0] S256
  shapeCasts_S256_S1x256 : S256.ShapeCasts S1x256
  shapeCasts_S1x256_S256 : S1x256.ShapeCasts S256
  inb_S256_S256_0 : ∀ a, (![0] : Fin 1 → Nat) a + S256.size a ≤ S256.size a
  h_S256 : 0 < S256.numel
  reducesTo_S4096_S_d0 : S4096.ReducesTo [0] S_
  h_S_ : 0 < S_.numel
  dot_S512x1024_S256x1024_S512x256_1_1_0_0_n_n_wf : DotDims.WF S512x1024 S256x1024 S512x256 [1] [1] [0] [0] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x1024.size a ≤ S8192x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x1024.size a ≤ S8192x1024.size a
  hwx0_0 : ∀ i : grid0.Coords, EltTy.bits .bf16 = 32 ∨ (Rect.block (s := S8192x1024) S8192x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .bf16 = 32 ∨ (Rect.block (s := S4096x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S4096.size a
  hwx0_2 : ∀ i : grid0.Coords, EltTy.bits .f32 = 32 ∨ (Rect.block (s := S4096) S256.size (cc0_transform_2 i) (hinb0_2 i)).WholeWords (EltTy.packing .f32)

variable [Facts₀]

def dot_S512x1024_S256x1024_S512x256_1_1_0_0_n_n : DotDims S512x1024 S256x1024 S512x256 where
  lhsContracting := [1]
  rhsContracting := [1]
  lhsNonContracting := [0]
  rhsNonContracting := [0]
  lhsBatch := []
  rhsBatch := []
  wf := dot_S512x1024_S256x1024_S512x256_1_1_0_0_n_n_wf

abbrev win0_0 : Pipeline.Window sig grid0 :=
  Pipeline.Window.ofSpec (Memref.whole main_v0) S8192x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S32x128x1024 : Shape := ⟨3, ![32, 128, 1024]⟩
abbrev S32x128x8192 : Shape := ⟨3, ![32, 128, 8192]⟩
abbrev S4096x8192 : Shape := ⟨2, ![4096, 8192]⟩
abbrev S_ : Shape := ⟨0, ![]⟩
abbrev S4096 : Shape := ⟨1, ![4096]⟩
abbrev S4096x1 : Shape := ⟨2, ![4096, 1]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S32x128x1024, .f32⟩
  | .hbm, ⟨2, _⟩ => ⟨S32x128x8192, .f32⟩
  | .hbm, ⟨3, _⟩ => ⟨S4096x8192, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S4096x1, .f32⟩
  | .hbm, ⟨23, _⟩ => ⟨S4096x8192, .f32⟩
  | .hbm, ⟨24, _⟩ => ⟨S4096x8192, .f32⟩
  | .hbm, ⟨25, _⟩ => ⟨S4096x1, .f32⟩
  | .hbm, ⟨26, _⟩ => ⟨S4096x8192, .f32⟩
  | .hbm, ⟨27, _⟩ => ⟨S4096x8192, .f32⟩
  | .hbm, ⟨28, _⟩ => ⟨S4096x8192, .f32⟩
  | .hbm, ⟨29, _⟩ => ⟨S4096x8192, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096x8192, .f32⟩
  | .hbm, ⟨36, _⟩ => ⟨S4096x8192, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096, .f32⟩
  | .hbm, ⟨47, _⟩ => ⟨S4096, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_9 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_10 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_11 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_12 : Ref sig .tc := ⟨.hbm, 61, rfl⟩
abbrev main_v46 : Ref sig .tc := ⟨.hbm, 62, rfl⟩
abbrev main_cst_13 : Ref sig .tc := ⟨.hbm, 63, rfl⟩
abbrev main_v47 : Ref sig .tc := ⟨.hbm, 64, rfl⟩

abbrev nD : Nat := 1
abbrev τ : Topo := Topo.v7x

variable {F : FTy → Type} [FloatOps F]

class Facts₀ : Prop where
  shapeCasts_S32x128x8192_S4096x8192 : S32x128x8192.ShapeCasts S4096x8192
  reducesTo_S4096x8192_S4096_d1 : S4096x8192.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x8192_0_1 : S4096x1.BroadcastsInDim S4096x8192 (![0, 1] : Fin 2 → Fin S4096x8192.rank)
  reducesTo_S4096_S_d0 : S4096.ReducesTo [0] S_
  dot_S32x128x1024_S8192x1024_S32x128x8192_2_1_01_0_n_n_wf : DotDims.WF S32x128x1024 S8192x1024 S32x128x8192 [2] [1] [0, 1] [0] [] []

variable [Facts₀]

def dot_S32x128x1024_S8192x1024_S32x128x8192_2_1_01_0_n_n : DotDims S32x128x1024 S8192x1024 S32x128x8192 where
  lhsContracting := [2]
  rhsContracting := [1]
  lhsNonContracting := [0, 1]
  rhsNonContracting := [0]
  lhsBatch := []
  rhsBatch := []
  wf := dot_S32x128x1024_S8192x1024_S32x128x8192_2_1_01_0_n_n_wf

class Facts : Prop extends Facts₀ where

variable [Facts]
-- ==== Proof.BodyValue.lean ====
/-
  What one grid step of the kernel leaves in its output block, as a pure function of the two input blocks.

  The body keeps the whole batch block x0 ([8192, 1024]) resident, loads the step's 256 projection rows x1
  ([256, 1024]) once, and runs 16 trips; trip k reads rows 512 k … 512 k + 511 of x0, multiplies them against x1 and
  adds the column sums of the product and of its second, third and fourth powers to four running rows of 256 lanes,
  which start at zero. After the loop the four rows go through the closing arithmetic (mean, spread, third and
  fourth standardised moments, the quadratic penalty) and the result is stored over the whole output block.
  Here the loop's state is written as a plain recursion on the trip number (`sums`) and the block the step leaves
  (`bodyOut`) as the closing arithmetic of the state after the last trip; the arithmetic itself is read in
  LaneValue.lean.
-/
import proofs.«107761_j35055523070528_2_alg».proof.Proof.Gen.KernelIdeal.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem

variable {F : FTy → Type} [FloatOps F]

/-- The four running rows: sums of the projected values, of their squares, cubes and fourth powers, lane by lane. -/
abbrev Sums (F : FTy → Type) [FloatOps F] : Type :=
  FVec F S1x256 .f32 × FVec F S1x256 .f32 × FVec F S1x256 .f32 × FVec F S1x256 .f32

/-- The loop makes sixteen trips. -/
theorem trips_eq : k0_t1_loop.trips = 16 := by decide +kernel

/-- Rows 512 k … 512 k + 511 of the resident batch block: what trip k loads. -/
def rowsOf (x0 : Vec F S8192x1024 .bf16) (k : Fin k0_t1_loop.trips) : Vec F S512x1024 .bf16 :=
  View.ld x0 (Rect.unit (s := S8192x1024) (k0_off1 k) S512x1024.size (k0_off1_inb k))

/-- One trip: each running row plus the column sums of its power of this trip's product. Past the last trip, nothing. -/
def sumsStep (x0 : Vec F S8192x1024 .bf16) (x1 : Vec F S256x1024 .bf16) (k : ℕ) (s : Sums F) : Sums F :=
  if h : k < k0_t1_loop.trips then
    (k0_pay5 x1 s.1 (rowsOf x0 ⟨k, h⟩), k0_pay6 x1 s.2.1 (rowsOf x0 ⟨k, h⟩),
      k0_pay7 x1 s.2.2.1 (rowsOf x0 ⟨k, h⟩), k0_pay8 x1 s.2.2.2 (rowsOf x0 ⟨k, h⟩))
  else s

/-- The running rows before trip k, from zero. -/
def sums (x0 : Vec F S8192x1024 .bf16) (x1 : Vec F S256x1024 .bf16) : ℕ → Sums F
  | 0 => (k0_pay2, k0_pay2, k0_pay2, k0_pay2)
  | k + 1 => sumsStep x0 x1 k (sums x0 x1 k)

/-- The block a step leaves: the closing arithmetic of the four rows after the last trip. -/
def bodyOut (x0 : Vec F S8192x1024 .bf16) (x1 : Vec F S256x1024 .bf16) : FVec F S256 .f32 :=
  k0_pay1 (k0_pay9 (sums x0 x1 k0_t1_loop.trips).1)
    (k0_pay11 (sums x0 x1 k0_t1_loop.trips).1 (sums x0 x1 k0_t1_loop.trips).2.1)
    (k0_pay13 (sums x0 x1 k0_t1_loop.trips).1 (sums x0 x1 k0_t1_loop.trips).2.1 (sums x0 x1 k0_t1_loop.trips).2.2.1)
    (k0_pay14 (sums x0 x1 k0_t1_loop.trips).1 (sums x0 x1 k0_t1_loop.trips).2.1 (sums x0 x1 k0_t1_loop.trips).2.2.1
      (sums x0 x1 k0_t1_loop.trips).2.2.2)
    (k0_pay15 (sums x0 x1 k0_t1_loop.trips).1 (sums x0 x1 k0_t1_loop.trips).2.1)

section run

variable (c : Dev nD) (i : grid0.Coords)
  (arg1 : Memref sig .tc .vmem S8192x1024 .bf16) (harg1 : arg1.IsWhole)
  (arg2 : Memref sig .tc .vmem S256x1024 .bf16) (harg2 : arg2.IsWhole)
  (arg3 : Memref sig .tc .vmem S256 .f32) (harg3 : arg3.IsWhole)

/-- What the run found for one trip is the four updates over the rows that trip loads. -/
theorem trip_eq (v0 : Vec F S256x1024 .bf16) (x0 : Vec F S8192x1024 .bf16) (k : Fin k0_t1_loop.trips) (acc : Sums F) :
    tripR_k0_t1 (F := F) Variants.none c none i arg1 harg1 arg2 harg2 arg3 harg3 v0 (harg1.unread x0) k acc
      = (k0_pay5 v0 acc.1 (rowsOf x0 k), k0_pay6 v0 acc.2.1 (rowsOf x0 k),
          k0_pay7 v0 acc.2.2.1 (rowsOf x0 k), k0_pay8 v0 acc.2.2.2 (rowsOf x0 k)) := by
  unfold tripR_k0_t1 trip_k0_t1
  dsimp only
  simp only [View.readAt_eq_ld, harg1.read_unread]
  rfl

/-- The run's state before trip k is the recursion's. -/
theorem state_eq (x0 : Vec F S8192x1024 .bf16) (x1 : Vec F S256x1024 .bf16) (k : ℕ) :
    st_k0_t1 (F := F) Variants.none c none i arg1 harg1 arg2 harg2 arg3 harg3 x1 (harg1.unread x0)
        (k0_pay2, k0_pay2, k0_pay2, k0_pay2) k = sums x0 x1 k := by
  induction k with
  | zero => rfl
  | succ k ih =>
    rw [st_k0_t1.eq_2, ih, sums]
    unfold st_k0_t1Step sumsStep
    by_cases h : k < k0_t1_loop.trips
    · rw [dif_pos h, dif_pos h, trip_eq]
    · rw [dif_neg h, dif_neg h]

/-- What the run leaves in the output's staging buffer is `bodyOut` of the two input blocks. -/
theorem out_eq (x0 : Vec F S8192x1024 .bf16) (x1 : Vec F S256x1024 .bf16) :
    out0_A_2 (F := F) c i arg1 harg1 arg2 harg2 arg3 harg3 x0 x1 = bodyOut x0 x1 := by
  unfold out0_A_2
  rw [View.read_writes_eq_canon _ _ _ (cover0_A_2 c i arg1 harg1 arg2 harg2 arg3 harg3 x0 x1)]
  unfold kernelRun0_A
  dsimp only
  sl_unfold_words
  rw [View.canon_unit_zero (by funext a; fin_cases a; rfl)]
  have hz : (![0, 0] : Fin S256x1024.rank → ℕ) = fun _ => 0 := by funext a; fin_cases a <;> rfl
  simp only [View.readAt_eq_ld, harg2.read_unread, View.ld_unit_zero (S := S256x1024) hz]
  rw [state_eq c i arg1 harg1 arg2 harg2 arg3 harg3 x0 x1]
  rfl

end run

end Cert.KernelIdeal.Body

end
-- ==== Proof.MomentAlgebra.lean ====
/-
  Raw power sums against centred moments, over the reals.

  For finitely many reals y (n of them, n ≠ 0) with mean μ = (∑ y) / n:
  • the mean squared deviation (∑ (y − μ)²) / n is the mean of the squares minus μ²;
  • the mean of the cubes of the standardised values (y − μ) / σ is the third central moment over σ³, the third
    central moment being  (∑ y³)/n − 3 μ (∑ y²)/n + 2 μ³;
  • the mean of their fourth powers is the fourth central moment over σ⁴, the fourth central moment being
    (∑ y⁴)/n − 4 μ (∑ y³)/n + 6 μ² (∑ y²)/n − 3 μ⁴.
  Each is the binomial expansion of (y − μ)^k summed over the values, with ∑ y = n μ. The products are written in
  the association in which the two programs compute them.
-/
import Mathlib

namespace Moments

open Finset

variable {ι : Type*} [Fintype ι]

/-- The mean squared deviation is the mean of the squares minus the squared mean. -/
theorem mean_sq_dev (y : ι → ℝ) (n μ : ℝ) (hn : (Fintype.card ι : ℝ) = n) (hn0 : n ≠ 0)
    (hμ : μ = (∑ b, y b) / n) :
    (∑ b, (y b - μ) * (y b - μ)) / n = (∑ b, y b * y b) / n - μ * μ := by
  have hS : ∑ b, y b = n * μ := by rw [hμ]; field_simp
  have h : ∀ b, (y b - μ) * (y b - μ) = y b * y b - 2 * μ * y b + μ * μ := fun b => by ring
  simp only [h, sum_add_distrib, sum_sub_distrib, ← mul_sum, sum_const, card_univ, nsmul_eq_mul, hn, hS]
  field_simp
  ring

/-- The mean cube of the standardised values is the third central moment, from the raw sums, over σ³. -/
theorem mean_cube_std (y : ι → ℝ) (n μ σ : ℝ) (hn : (Fintype.card ι : ℝ) = n) (hn0 : n ≠ 0) (hσ : σ ≠ 0)
    (hμ : μ = (∑ b, y b) / n) :
    (∑ b, ((y b - μ) / σ * ((y b - μ) / σ)) * ((y b - μ) / σ)) / n
      = (((∑ b, (y b * y b) * y b) / n - (3 * μ) * ((∑ b, y b * y b) / n)) + 2 * (μ * (μ * μ))) / (σ * (σ * σ)) := by
  have hS : ∑ b, y b = n * μ := by rw [hμ]; field_simp
  have h : ∀ b, ((y b - μ) / σ * ((y b - μ) / σ)) * ((y b - μ) / σ)
      = ((y b * y b) * y b - 3 * μ * (y b * y b) + 3 * μ * μ * y b - μ * μ * μ) / (σ * (σ * σ)) := fun b => by
    field_simp; ring
  simp only [h, ← sum_div, sum_add_distrib, sum_sub_distrib, ← mul_sum, sum_const, card_univ, nsmul_eq_mul, hn, hS]
  field_simp
  ring

/-- The mean fourth power of the standardised values is the fourth central moment, from the raw sums, over σ⁴. -/
theorem mean_fourth_std (y : ι → ℝ) (n μ σ : ℝ) (hn : (Fintype.card ι : ℝ) = n) (hn0 : n ≠ 0) (hσ : σ ≠ 0)
    (hμ : μ = (∑ b, y b) / n) :
    (∑ b, ((y b - μ) / σ * ((y b - μ) / σ)) * ((y b - μ) / σ * ((y b - μ) / σ))) / n
      = ((((∑ b, (y b * y b) * (y b * y b)) / n - (4 * μ) * ((∑ b, (y b * y b) * y b) / n))
            + ((6 * μ) * μ) * ((∑ b, y b * y b) / n)) - 3 * ((μ * μ) * (μ * μ))) / ((σ * σ) * (σ * σ)) := by
  have hS : ∑ b, y b = n * μ := by rw [hμ]; field_simp
  have h : ∀ b, ((y b - μ) / σ * ((y b - μ) / σ)) * ((y b - μ) / σ * ((y b - μ) / σ))
      = ((y b * y b) * (y b * y b) - 4 * μ * ((y b * y b) * y b) + 6 * μ * μ * (y b * y b) - 4 * μ * μ * μ * y b
          + μ * μ * μ * μ) / ((σ * σ) * (σ * σ)) := fun b => by
    field_simp; ring
  simp only [h, ← sum_div, sum_add_distrib, sum_sub_distrib, ← mul_sum, sum_const, card_univ, nsmul_eq_mul, hn, hS]
  field_simp
  ring

end Moments
-- ==== Proof.LibChunkedSum.lean ====
import Mathlib.Algebra.BigOperators.Fin
import Mathlib.Algebra.BigOperators.Intervals

/-!
# A sum over an axis cut in equal chunks

An axis of `n * b` terms is cut in `n` consecutive chunks of width `b`.  In an additive
commutative monoid the sum of the chunk sums is the sum over the whole axis, and a
running total that starts from "first chunk plus a constant" and then adds one chunk at a
time is, at every stage, "sum of the chunks so far, plus the constant".  Only associativity
and commutativity of `+` are used.
-/

namespace Cert.Lib.ChunkedSum

open Finset

variable {M : Type*} [AddCommMonoid M]

/-- Chunk `p` of width `b` of the sequence `f`: the sum of the `b` consecutive terms
`f (b * p), f (b * p + 1), …, f (b * p + (b - 1))`. -/
def chunk (b : ℕ) (f : ℕ → M) (p : ℕ) : M := ∑ q : Fin b, f (b * p + q.val)

/-- A chunk written as a sum over the initial segment `{0, …, b - 1}` of the naturals. -/
theorem chunk_eq_sum_range (b : ℕ) (f : ℕ → M) (p : ℕ) :
    chunk b f p = ∑ q ∈ range b, f (b * p + q) :=
  Fin.sum_univ_eq_sum_range (fun q => f (b * p + q)) b

/-- The first `n` chunks of width `b` tile the first `n * b` terms: the sum of their sums is
the sum of `f 0, …, f (n * b - 1)`, written over the naturals. -/
theorem sum_chunks_range (n b : ℕ) (f : ℕ → M) :
    ∑ p ∈ range n, chunk b f p = ∑ j ∈ range (n * b), f j := by
  induction n with
  | zero => simp
  | succ n ih =>
    rw [sum_range_succ, ih, chunk_eq_sum_range, Nat.succ_mul, sum_range_add, Nat.mul_comm b n]

/-- The chunks tile the axis: the sum over `p < n` of chunk `p` is the sum of all
`n * b` terms. -/
theorem sum_chunks (n b : ℕ) (f : ℕ → M) :
    ∑ p ∈ Finset.range n, chunk b f p = ∑ j : Fin (n * b), f j.val := by
  rw [sum_chunks_range, Fin.sum_univ_eq_sum_range (fun j => f j) (n * b)]

/-- The first stage of the running total: chunk `0` plus the constant `β` is the sum of the
first one chunk, plus `β`. -/
theorem acc_first (b : ℕ) (f : ℕ → M) (β : M) :
    chunk b f 0 + β = (∑ p ∈ Finset.range 1, chunk b f p) + β := by
  rw [sum_range_one]

/-- One more stage of the running total: adding chunk `k + 1` to "the first `k + 1` chunks
plus `β`" gives "the first `k + 2` chunks plus `β`". -/
theorem acc_step (b k : ℕ) (f : ℕ → M) (β : M) :
    ((∑ p ∈ Finset.range (k + 1), chunk b f p) + β) + chunk b f (k + 1)
      = (∑ p ∈ Finset.range (k + 2), chunk b f p) + β := by
  rw [add_right_comm, ← sum_range_succ]

/-- Four chunks of width `256` tile an axis of `1024` terms. -/
theorem sum_chunks_1024 (f : ℕ → M) :
    ∑ p ∈ Finset.range 4, chunk 256 f p = ∑ j : Fin 1024, f j.val :=
  sum_chunks 4 256 f

end Cert.Lib.ChunkedSum
-- ==== Proof.LibRealImage.lean ====
/-
  GENERAL LEMMAS: real numbers inside the extended reals, under finite sums and maxima.
  • `coe_sum`: the image of a finite sum of reals is the sum of the images;
  • `coe_max`: the image of a maximum of two reals is the maximum of the images;
  • `sum_mul_real`: a finite sum of reals times a real is the sum of the products, computed on the extended reals
    (the distributive law, which fails there at infinities, holds when every term and the factor are real).
-/
import Mathlib.Data.EReal.Basic
import Mathlib.Data.EReal.Operations
import Mathlib.Algebra.BigOperators.Fin

open scoped BigOperators

namespace Cert.Lib.RealImage

/-- The image of a finite sum of reals is the sum of the images. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The image of a maximum of reals is the maximum of the images. -/
theorem coe_max (a b : ℝ) : ((max a b : ℝ) : EReal) = max (a : EReal) (b : EReal) :=
  EReal.coe_strictMono.monotone.map_max

/-- A sum of reals times a real is the sum of the products, on the extended reals. -/
theorem sum_mul_real {ι : Type*} (s : Finset ι) (h : ι → ℝ) (e : ℝ) :
    (∑ i ∈ s, (h i : EReal)) * (e : EReal) = ∑ i ∈ s, (h i : EReal) * (e : EReal) := by
  rw [← coe_sum, ← EReal.coe_mul, Finset.sum_mul, coe_sum]
  exact Finset.sum_congr rfl fun i _ => EReal.coe_mul _ _

end Cert.Lib.RealImage
-- ==== Proof.RowLoss.lean ====
/-
  One row's loss, in the two arrangements, on the extended reals — and that they agree on real data.

  A row is the 8192 projected values y of one projection direction. Both programs end with the same penalty
      mean² + (std − 1)² + 0.1 · skew² + 0.1 · (kurt − 3)²,        std = √var + ε,
  and differ in how they reach mean, var, skew and kurt:
  • from the VALUES (`fromValues`): mean = (∑ y)/n, var = (∑ (y − mean)²)/n, and skew, kurt the means of the third and
    fourth powers of z = (y − mean)/std;
  • from the four raw SUMS (`fromSums`) s₁ = ∑ y, s₂ = ∑ y², s₃ = ∑ y³, s₄ = ∑ y⁴: var = s₂/n − mean², and skew,
    kurt the third and fourth central moments, expanded in the raw moments, over std³ and std⁴.
  The raw sums themselves are accumulated sixteen chunks of 512 at a time from zero (`chunkAcc`), which in a
  commutative monoid is the sum over all 8192 values.
  For real y everything stays real (n = 8192 ≠ 0; var is a mean of squares, so √ is the real root; std ≥ ε > 0, so
  the quotients are real quotients) and the two arrangements are the identities of MomentAlgebra.lean.
-/
import Idealize.ShloMosaic.PureOps.Ideal.Laws
import proofs.«107761_j35055523070528_2_alg».proof.Proof.MomentAlgebra
import proofs.«107761_j35055523070528_2_alg».proof.Proof.LibChunkedSum
import proofs.«107761_j35055523070528_2_alg».proof.Proof.LibRealImage

noncomputable section

namespace Cert.RowLoss

open Idealize.ShloMosaic
open scoped BigOperators

/-! ## The constants -/

/-- The number of values in a row, 8192, as both programs spell it. -/
abbrev wN : EReal := Ideal.ofBits .f32 0x46000000#32
/-- ε, the single-precision number nearest 10⁻⁶. -/
abbrev wEps : EReal := Ideal.ofBits .f32 0x358637BD#32
abbrev w0 : EReal := Ideal.ofBits .f32 0x00000000#32
abbrev w1 : EReal := Ideal.ofBits .f32 0x3F800000#32
abbrev w2 : EReal := Ideal.ofBits .f32 0x40000000#32
abbrev w3 : EReal := Ideal.ofBits .f32 0x40400000#32
abbrev w4 : EReal := Ideal.ofBits .f32 0x40800000#32
abbrev w6 : EReal := Ideal.ofBits .f32 0x40C00000#32
/-- The single-precision number nearest 1/10 (the same word on both sides: never evaluated). -/
abbrev wTenth : EReal := Ideal.ofBits .f32 0x3DCCCCCD#32

theorem wN_eq : wN = ((8192 : ℝ) : EReal) := by
  simp [Ideal.ofBits, Ideal.ieee, -EReal.coe_mul]; norm_num
theorem w2_eq : w2 = ((2 : ℝ) : EReal) := by
  simp [Ideal.ofBits, Ideal.ieee, -EReal.coe_mul]; norm_num
theorem w3_eq : w3 = ((3 : ℝ) : EReal) := by
  simp [Ideal.ofBits, Ideal.ieee, -EReal.coe_mul]; norm_num
theorem w4_eq : w4 = ((4 : ℝ) : EReal) := by
  simp [Ideal.ofBits, Ideal.ieee, -EReal.coe_mul]; norm_num
theorem w6_eq : w6 = ((6 : ℝ) : EReal) := by
  simp [Ideal.ofBits, Ideal.ieee, -EReal.coe_mul]; norm_num
/-- ε is a positive real: 8796093 · 2⁻⁴³. -/
def eps : ℝ := 8796093 * (2 : ℝ) ^ (-43 : ℤ)
theorem eps_pos : 0 < eps := by unfold eps; positivity
theorem wEps_eq : wEps = (eps : EReal) := by
  unfold eps
  simp [Ideal.ofBits, Ideal.ieee, -EReal.coe_mul]

/-! ## The two arrangements -/

/-- The closing penalty from the four statistics. -/
def penalty (mean std skew kurt : EReal) : EReal :=
  ((mean * mean + (std - w1) * (std - w1)) + wTenth * (skew * skew)) + wTenth * ((kurt - w3) * (kurt - w3))

/-- The loss of a row from its four raw sums. -/
def fromSums (s1 s2 s3 s4 : EReal) : EReal :=
  penalty (Ideal.div s1 wN)
    (Ideal.sqrt (Ideal.div s2 wN - Ideal.div s1 wN * Ideal.div s1 wN) + wEps)
    (Ideal.div
      ((Ideal.div s3 wN - (w3 * Ideal.div s1 wN) * Ideal.div s2 wN)
        + w2 * (Ideal.div s1 wN * (Ideal.div s1 wN * Ideal.div s1 wN)))
      ((Ideal.sqrt (Ideal.div s2 wN - Ideal.div s1 wN * Ideal.div s1 wN) + wEps)
        * ((Ideal.sqrt (Ideal.div s2 wN - Ideal.div s1 wN * Ideal.div s1 wN) + wEps)
          * (Ideal.sqrt (Ideal.div s2 wN - Ideal.div s1 wN * Ideal.div s1 wN) + wEps))))
    (Ideal.div
      ((((Ideal.div s4 wN - (w4 * Ideal.div s1 wN) * Ideal.div s3 wN)
          + ((w6 * Ideal.div s1 wN) * Ideal.div s1 wN) * Ideal.div s2 wN))
        - w3 * ((Ideal.div s1 wN * Ideal.div s1 wN) * (Ideal.div s1 wN * Ideal.div s1 wN)))
      (((Ideal.sqrt (Ideal.div s2 wN - Ideal.div s1 wN * Ideal.div s1 wN) + wEps)
          * (Ideal.sqrt (Ideal.div s2 wN - Ideal.div s1 wN * Ideal.div s1 wN) + wEps))
        * ((Ideal.sqrt (Ideal.div s2 wN - Ideal.div s1 wN * Ideal.div s1 wN) + wEps)
          * (Ideal.sqrt (Ideal.div s2 wN - Ideal.div s1 wN * Ideal.div s1 wN) + wEps))))

variable {ι : Type} [Fintype ι]

/-- The mean of a row, its sum taken from the zero word. -/
def meanOf (y : ι → EReal) : EReal := Ideal.div (w0 + ∑ b, y b) wN
/-- The spread of a row: the root of its mean squared deviation, plus ε. -/
def stdOf (y : ι → EReal) : EReal :=
  Ideal.sqrt (Ideal.div (w0 + ∑ b, (y b - meanOf y) * (y b - meanOf y)) wN) + wEps
/-- A standardised value. -/
def zOf (y : ι → EReal) (b : ι) : EReal := Ideal.div (y b - meanOf y) (stdOf y)

/-- The loss of a row from its values. -/
def fromValues (y : ι → EReal) : EReal :=
  penalty (meanOf y) (stdOf y)
    (Ideal.div (w0 + ∑ b, (zOf y b * zOf y b) * zOf y b) wN)
    (Ideal.div (w0 + ∑ b, (zOf y b * zOf y b) * (zOf y b * zOf y b)) wN)

/-! ## A raw sum accumulated chunk by chunk -/

/-- The running total after k chunks of 512 terms, from the zero word. -/
def chunkAcc (f : ℕ → EReal) : ℕ → EReal
  | 0 => w0
  | k + 1 => chunkAcc f k + ∑ j : Fin 512, f (512 * k + j.val)

theorem chunkAcc_eq (f : ℕ → EReal) (k : ℕ) :
    chunkAcc f k = ∑ p ∈ Finset.range k, Cert.Lib.ChunkedSum.chunk 512 f p := by
  induction k with
  | zero => simp [chunkAcc, w0]
  | succ k ih => rw [chunkAcc, ih, Finset.sum_range_succ]; rfl

/-- Sixteen chunks of 512 are the whole row. -/
theorem chunkAcc_sixteen (f : ℕ → EReal) : chunkAcc f 16 = ∑ b : Fin 8192, f b.val := by
  rw [chunkAcc_eq]; exact Cert.Lib.ChunkedSum.sum_chunks 16 512 f

/-! ## Real rows -/

theorem div_coe_coe (a b : ℝ) (hb : b ≠ 0) : Ideal.div (a : EReal) (b : EReal) = ((a / b : ℝ) : EReal) := by
  rw [Ideal.div_coe hb, ← EReal.coe_mul, mul_one_div]

theorem sqrt_coe_nonneg {r : ℝ} (h : 0 ≤ r) : Ideal.sqrt (r : EReal) = ((Real.sqrt r : ℝ) : EReal) := by
  rw [Ideal.sqrt_coe, if_neg (not_lt.2 h)]

/-- The spread computed from the raw sums of a real row. -/
def stdK (S1 S2 : ℝ) : ℝ := Real.sqrt (S2 / 8192 - S1 / 8192 * (S1 / 8192)) + eps

/-- The spread computed from the values of a real row. -/
def stdR (Y : ι → ℝ) : ℝ :=
  Real.sqrt ((∑ b, (Y b - (∑ b, Y b) / 8192) * (Y b - (∑ b, Y b) / 8192)) / 8192) + eps

theorem stdR_pos (Y : ι → ℝ) : 0 < stdR Y :=
  add_pos_of_nonneg_of_pos (Real.sqrt_nonneg _) eps_pos

theorem n_ne : (8192 : ℝ) ≠ 0 := by norm_num

/-- From real raw sums whose variance is not negative, the loss is the penalty of real statistics. -/
theorem fromSums_coe (S1 S2 S3 S4 : ℝ) (hv : 0 ≤ S2 / 8192 - S1 / 8192 * (S1 / 8192)) (hσ : stdK S1 S2 ≠ 0) :
    fromSums (S1 : EReal) (S2 : EReal) (S3 : EReal) (S4 : EReal)
      = penalty ((S1 / 8192 : ℝ) : EReal) ((stdK S1 S2 : ℝ) : EReal)
          ((((S3 / 8192 - (3 * (S1 / 8192)) * (S2 / 8192)) + 2 * (S1 / 8192 * (S1 / 8192 * (S1 / 8192))))
              / (stdK S1 S2 * (stdK S1 S2 * stdK S1 S2)) : ℝ) : EReal)
          (((((S4 / 8192 - (4 * (S1 / 8192)) * (S3 / 8192)) + ((6 * (S1 / 8192)) * (S1 / 8192)) * (S2 / 8192))
                - 3 * ((S1 / 8192 * (S1 / 8192)) * (S1 / 8192 * (S1 / 8192))))
              / ((stdK S1 S2 * stdK S1 S2) * (stdK S1 S2 * stdK S1 S2)) : ℝ) : EReal) := by
  have h3 : stdK S1 S2 * (stdK S1 S2 * stdK S1 S2) ≠ 0 := mul_ne_zero hσ (mul_ne_zero hσ hσ)
  have h4 : (stdK S1 S2 * stdK S1 S2) * (stdK S1 S2 * stdK S1 S2) ≠ 0 := mul_ne_zero (mul_ne_zero hσ hσ) (mul_ne_zero hσ hσ)
  have hs : Ideal.sqrt (((S2 / 8192 - S1 / 8192 * (S1 / 8192) : ℝ)) : EReal) + wEps = ((stdK S1 S2 : ℝ) : EReal) := by
    rw [sqrt_coe_nonneg hv, wEps_eq, ← EReal.coe_add]; rfl
  unfold fromSums
  rw [wN_eq, w2_eq, w4_eq, w6_eq]
  simp only [div_coe_coe _ _ n_ne]
  rw [show w3 * ((S1 / 8192 : ℝ) : EReal) = ((3 * (S1 / 8192) : ℝ) : EReal) by rw [w3_eq, ← EReal.coe_mul]]
  rw [show w3 * ((((S1 / 8192 : ℝ) : EReal) * ((S1 / 8192 : ℝ) : EReal)) * (((S1 / 8192 : ℝ) : EReal) * ((S1 / 8192 : ℝ) : EReal)))
      = ((3 * ((S1 / 8192 * (S1 / 8192)) * (S1 / 8192 * (S1 / 8192))) : ℝ) : EReal) by
    rw [w3_eq]; simp only [← EReal.coe_mul]]
  simp only [← EReal.coe_mul, ← EReal.coe_sub, ← EReal.coe_add, hs]
  rw [div_coe_coe _ _ h3, div_coe_coe _ _ h4]

/-- From the values of a real row, the loss is the penalty of real statistics. -/
theorem fromValues_coe (Y : ι → ℝ) :
    fromValues (fun b => (Y b : EReal))
      = penalty (((∑ b, Y b) / 8192 : ℝ) : EReal) ((stdR Y : ℝ) : EReal)
          (((∑ b, ((Y b - (∑ b, Y b) / 8192) / stdR Y * ((Y b - (∑ b, Y b) / 8192) / stdR Y))
                * ((Y b - (∑ b, Y b) / 8192) / stdR Y)) / 8192 : ℝ) : EReal)
          (((∑ b, ((Y b - (∑ b, Y b) / 8192) / stdR Y * ((Y b - (∑ b, Y b) / 8192) / stdR Y))
                * ((Y b - (∑ b, Y b) / 8192) / stdR Y * ((Y b - (∑ b, Y b) / 8192) / stdR Y))) / 8192 : ℝ) : EReal) := by
  have hw0 : w0 = 0 := Ideal.ofBits_zero_f32
  have hmean : meanOf (fun b => (Y b : EReal)) = (((∑ b, Y b) / 8192 : ℝ) : EReal) := by
    unfold meanOf
    rw [hw0, zero_add, ← Cert.Lib.RealImage.coe_sum, wN_eq, div_coe_coe _ _ n_ne]
  have hV0 : 0 ≤ (∑ b, (Y b - (∑ b, Y b) / 8192) * (Y b - (∑ b, Y b) / 8192)) / 8192 :=
    div_nonneg (Finset.sum_nonneg fun b _ => mul_self_nonneg _) (by norm_num)
  have hstd : stdOf (fun b => (Y b : EReal)) = ((stdR Y : ℝ) : EReal) := by
    unfold stdOf
    rw [hmean]
    simp only [← EReal.coe_sub, ← EReal.coe_mul]
    rw [hw0, zero_add, ← Cert.Lib.RealImage.coe_sum, wN_eq, div_coe_coe _ _ n_ne, sqrt_coe_nonneg hV0, wEps_eq,
      ← EReal.coe_add]
    rfl
  have hz : ∀ b, zOf (fun b => (Y b : EReal)) b = (((Y b - (∑ b, Y b) / 8192) / stdR Y : ℝ) : EReal) := fun b => by
    unfold zOf
    rw [hmean, hstd, ← EReal.coe_sub, div_coe_coe _ _ (stdR_pos Y).ne']
  unfold fromValues
  rw [hmean, hstd]
  simp only [hz, ← EReal.coe_mul]
  rw [hw0, zero_add, zero_add, ← Cert.Lib.RealImage.coe_sum, ← Cert.Lib.RealImage.coe_sum, wN_eq,
    div_coe_coe _ _ n_ne, div_coe_coe _ _ n_ne]

/-- THE BRIDGE: on a real row of 8192 values the loss from the four raw sums is the loss from the values. -/
theorem fromSums_eq_fromValues (Y : ι → ℝ) (hn : (Fintype.card ι : ℝ) = 8192) :
    fromSums (∑ b, (Y b : EReal)) (∑ b, (Y b : EReal) * (Y b : EReal))
        (∑ b, ((Y b : EReal) * (Y b : EReal)) * (Y b : EReal))
        (∑ b, ((Y b : EReal) * (Y b : EReal)) * ((Y b : EReal) * (Y b : EReal)))
      = fromValues (fun b => (Y b : EReal)) := by
  have e1 : (∑ b, (Y b : EReal)) = ((∑ b, Y b : ℝ) : EReal) := (Cert.Lib.RealImage.coe_sum _ _).symm
  have e2 : (∑ b, (Y b : EReal) * (Y b : EReal)) = ((∑ b, Y b * Y b : ℝ) : EReal) := by
    simp only [← EReal.coe_mul]; exact (Cert.Lib.RealImage.coe_sum _ _).symm
  have e3 : (∑ b, ((Y b : EReal) * (Y b : EReal)) * (Y b : EReal)) = ((∑ b, (Y b * Y b) * Y b : ℝ) : EReal) := by
    simp only [← EReal.coe_mul]; exact (Cert.Lib.RealImage.coe_sum _ _).symm
  have e4 : (∑ b, ((Y b : EReal) * (Y b : EReal)) * ((Y b : EReal) * (Y b : EReal)))
      = ((∑ b, (Y b * Y b) * (Y b * Y b) : ℝ) : EReal) := by
    simp only [← EReal.coe_mul]; exact (Cert.Lib.RealImage.coe_sum _ _).symm
  have hvar : (∑ b, Y b * Y b) / 8192 - (∑ b, Y b) / 8192 * ((∑ b, Y b) / 8192)
      = (∑ b, (Y b - (∑ b, Y b) / 8192) * (Y b - (∑ b, Y b) / 8192)) / 8192 :=
    (Moments.mean_sq_dev Y 8192 _ hn n_ne rfl).symm
  have hσ : stdK (∑ b, Y b) (∑ b, Y b * Y b) = stdR Y := by unfold stdK stdR; rw [hvar]
  have hv : 0 ≤ (∑ b, Y b * Y b) / 8192 - (∑ b, Y b) / 8192 * ((∑ b, Y b) / 8192) := by
    rw [hvar]; exact div_nonneg (Finset.sum_nonneg fun b _ => mul_self_nonneg _) (by norm_num)
  have hne : stdR Y ≠ 0 := (stdR_pos Y).ne'
  rw [e1, e2, e3, e4, fromSums_coe _ _ _ _ hv (hσ ▸ hne), fromValues_coe Y, hσ,
    Moments.mean_cube_std Y 8192 _ (stdR Y) hn n_ne hne rfl, Moments.mean_fourth_std Y 8192 _ (stdR Y) hn n_ne hne rfl]

end Cert.RowLoss

end
-- ==== Proof.LibRhsTDot.lean ====
/-
  A matrix against the transpose of another, read at an entry, on the extended reals.

  For dimension numbers that contract the SECOND axis of both operands (an M×K matrix against an N×K matrix, no batch
  axis — the product l · rᵀ), the contraction index has a single coordinate, and entry (a, b) of the product is the sum
  over k : Fin K of left (a, k) · right (b, k): row a of the left operand against row b of the right one. A
  `tpu.matmul` of that form into the zero accumulator is that sum, the zero word added on the left changing nothing.

  The statements take any dimension record `D` together with a proof that it is the record of that form; for a printed
  record that proof is `rfl`.
-/
import Idealize.ShloMosaic.PureOps.Ideal.Laws
import Idealize.ShloMosaic.Lib.ValueIdx

noncomputable section

namespace Idealize.ShloMosaic.RhsTDot

open Idealize.ShloMosaic Idealize.ShloMosaic.ValueIdx

variable {M K N : Nat}

/-- The left operand is read on its row axis at the entry's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand is read on its row axis at the entry's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The contraction of such a product, re-indexed by the one contracted coordinate. -/
theorem sum_eq (D : DotDims ⟨2, ![M, K]⟩ ⟨2, ![N, K]⟩ ⟨2, ![M, N]⟩) (hD : D = DotDims.transposedRhs M K N)
    (l : (⟨2, ![M, K]⟩ : Shape).Idx → EReal) (r : (⟨2, ![N, K]⟩ : Shape).Idx → EReal) (j : (⟨2, ![M, N]⟩ : Shape).Idx) :
    ∑ q : D.contr.Idx, l (D.lhsIdx j q) * r (D.rhsIdx j q) = ∑ k : Fin K, l (ix2 (j 0) k) * r (ix2 (j 1) k) := by
  subst hD
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_row _ _
      | ⟨1, _⟩ => exact ((DotDims.transposedRhs M K N).rhsIdx_val_of_single rfl _ _).trans hk)
  exact congrArg₂ (fun x y => l x * r y) el er

/-- A `tpu.matmul` of such a product into the zero accumulator at an entry. -/
theorem matmul_zero_apply {φ₁ φ₂ : FTy} (D : DotDims ⟨2, ![M, K]⟩ ⟨2, ![N, K]⟩ ⟨2, ![M, N]⟩) (hD : D = DotDims.transposedRhs M K N)
    (prec : Option ContractPrecision) (l : FVec Ideal ⟨2, ![M, K]⟩ φ₁) (r : FVec Ideal ⟨2, ![N, K]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 (j 1) k) := by
  simp only [matmul]
  rw [Ideal.matmul_constant_zero_apply]
  exact sum_eq D hD l r j

/-- The same at an entry given by its coordinates: row `a` of the left operand against row `b` of the right one. -/
theorem matmul_zero_ix2 {φ₁ φ₂ : FTy} (D : DotDims ⟨2, ![M, K]⟩ ⟨2, ![N, K]⟩ ⟨2, ![M, N]⟩) (hD : D = DotDims.transposedRhs M K N)
    (prec : Option ContractPrecision) (l : FVec Ideal ⟨2, ![M, K]⟩ φ₁) (r : FVec Ideal ⟨2, ![N, K]⟩ φ₂)
    (a : Fin M) (b : Fin N) :
    matmul D prec l r (constant (F := Ideal) ⟨2, ![M, N]⟩ .f32 0x00000000#32) (ix2 a b)
      = ∑ k : Fin K, l (ix2 a k) * r (ix2 b k) :=
  matmul_zero_apply D hD prec l r (ix2 a b)

end Idealize.ShloMosaic.RhsTDot

end
-- ==== Proof.LibRowsSum.lean ====
/-
  GENERAL LEMMA: a rank-2 array of extended reals summed along its FIRST axis — what `sum(x, axis=0)` becomes in a
  vector program — read at an index given by its coordinate.
  • `multiReduction_add_axis0_apply`: the sum over the rows of an `[a, b]` array from the zero word, at `j`, is the
    sum of column `j`.
-/
import Idealize.ShloMosaic.Lib.ValueIdx
import Idealize.ShloMosaic.PureOps.Ideal.Laws

noncomputable section

open scoped BigOperators

namespace Idealize.ShloMosaic.ValueIdx

open Idealize.ShloMosaic

/-- The sum over the rows of an `[a, b]` array of extended reals, accumulated from the zero word: at `j` it is the
    sum of column `j`. -/
theorem multiReduction_add_axis0_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ k : Fin a, src (ix2 k j) := by
  refine (Ideal.multiReduction_add_single src 0x00000000#32 h hφ hacc (ix1 j)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.LaneValue.lean ====
/-
  The kernel's output block read at a lane, on the extended reals.

  Lane p of a grid step belongs to one projection direction: row p of the step's 256 projection rows x1. Its
  projected values are y b = ∑_d x0 (b, d) · x1 (p, d) over the 8192 rows b of the batch block x0. Trip k of the loop
  forms the 512 values y (512 k + j) as entries (j, p) of one product, and adds their sum, and the sums of their
  squares, cubes and fourth powers, to lane p of the four running rows. So before trip k lane p of the running rows
  holds the chunk-by-chunk totals of y, y², y³, y⁴ over the first k chunks, after sixteen trips the totals over the
  whole row, and lane p of the block the step leaves is the loss of the row from those four raw sums.
-/
import proofs.«107761_j35055523070528_2_alg».proof.Proof.BodyValue
import proofs.«107761_j35055523070528_2_alg».proof.Proof.RowLoss
import proofs.«107761_j35055523070528_2_alg».proof.Proof.LibRhsTDot
import proofs.«107761_j35055523070528_2_alg».proof.Proof.LibRowsSum
import Idealize.ShloMosaic.Lib.ValueLayout
import Idealize.ShloMosaic.Lib.ValueIdx

set_option maxRecDepth 16384

noncomputable section

namespace Cert.KernelIdeal.Lane

open Cert.KernelIdeal Cert.KernelIdeal.Gen Cert.KernelIdeal.Body Cert.RowLoss
open Idealize.ShloMosaic Idealize.ShloMosaic.ValueIdx
open scoped BigOperators

/-- The projected value of batch row b for lane p (zero past the batch: the sequence is indexed by ℕ). -/
def proj (x0 : Vec Ideal S8192x1024 .bf16) (x1 : Vec Ideal S256x1024 .bf16) (p : Fin 256) (b : ℕ) : EReal :=
  if h : b < 8192 then ∑ d : Fin 1024, x0 (ix2 ⟨b, h⟩ d) * x1 (ix2 p d) else 0

theorem trip_lt (k : Fin k0_t1_loop.trips) : k.val < 16 := Nat.lt_of_lt_of_le k.isLt (le_of_eq trips_eq)

/-- Row j of the rows trip k loads is row 512 k + j of the batch block. -/
theorem rowsOf_apply (x0 : Vec Ideal S8192x1024 .bf16) (k : Fin k0_t1_loop.trips) (j : Fin 512) (d : Fin 1024)
    (h : 512 * k.val + j.val < 8192) :
    rowsOf x0 k (ix2 j d) = x0 (ix2 ⟨512 * k.val + j.val, h⟩ d) := by
  unfold rowsOf
  show x0 _ = x0 _
  refine congrArg x0 (funext fun a => Fin.ext ?_)
  match a with
  | ⟨0, _⟩ =>
    simp only [LoadRect.idx_apply, Rect.emb_apply, Rect.off_unit, Rect.stride_unit, Nat.one_mul, k0_off1_eq]; rfl
  | ⟨1, _⟩ =>
    simp only [LoadRect.idx_apply, Rect.emb_apply, Rect.off_unit, Rect.stride_unit, Nat.one_mul, k0_off1_eq]
    show 0 + d.val = d.val
    exact Nat.zero_add _

/-- Entry (j, p) of trip k's product is the projected value of batch row 512 k + j for lane p. -/
theorem prod_apply (x0 : Vec Ideal S8192x1024 .bf16) (x1 : Vec Ideal S256x1024 .bf16) (k : Fin k0_t1_loop.trips)
    (j : Fin 512) (p : Fin 256) :
    k0_pay3 x1 (rowsOf x0 k) (ix2 j p) = proj x0 x1 p (512 * k.val + j.val) := by
  have hk := trip_lt k
  have hb : 512 * k.val + j.val < 8192 := by omega
  unfold k0_pay3
  try dsimp only
  rw [shapeCast_self, shapeCast_self]
  refine (RhsTDot.matmul_zero_ix2 (φ₁ := .bf16) (φ₂ := .bf16) dot_S512x1024_S256x1024_S512x256_1_1_0_0_n_n rfl none
    (rowsOf x0 k) x1 j p).trans ?_
  unfold proj; rw [dif_pos hb]
  exact Finset.sum_congr rfl fun d _ => by rw [rowsOf_apply x0 k j d hb]

/-- A running row plus the column sums of a [512, 256] array, at lane p. -/
theorem colsum_apply (src : FVec Ideal S512x256 .f32) (acc : FVec Ideal S1x256 .f32) (z : Fin 1) (p : Fin 256) :
    addf acc (shapeCast S1x256 (multiReduction .add [0] S256 src 0x00000000#32 reduces_S512x256_S256 (.inl rfl) rfl)
        shapeCasts_S256_S1x256) (ix2 z p)
      = acc (ix2 z p) + ∑ j : Fin 512, src (ix2 j p) := by
  rw [addf_apply, shapeCast_a_1a_apply]
  exact congrArg (acc (ix2 z p) + ·) (multiReduction_add_axis0_apply src reduces_S512x256_S256 (.inl rfl) rfl p)

variable (x1 : Vec Ideal S256x1024 .bf16) (acc : FVec Ideal S1x256 .f32) (rows : Vec Ideal S512x1024 .bf16)
  (z : Fin 1) (p : Fin 256)

theorem pay5_apply : k0_pay5 x1 acc rows (ix2 z p) = acc (ix2 z p) + ∑ j : Fin 512, k0_pay3 x1 rows (ix2 j p) := by
  unfold k0_pay5; exact colsum_apply _ _ z p

theorem pay6_apply : k0_pay6 x1 acc rows (ix2 z p)
    = acc (ix2 z p) + ∑ j : Fin 512, k0_pay3 x1 rows (ix2 j p) * k0_pay3 x1 rows (ix2 j p) := by
  unfold k0_pay6 k0_pay4; exact colsum_apply _ _ z p

theorem pay7_apply : k0_pay7 x1 acc rows (ix2 z p)
    = acc (ix2 z p) + ∑ j : Fin 512, (k0_pay3 x1 rows (ix2 j p) * k0_pay3 x1 rows (ix2 j p)) * k0_pay3 x1 rows (ix2 j p) := by
  unfold k0_pay7 k0_pay4; exact colsum_apply _ _ z p

theorem pay8_apply : k0_pay8 x1 acc rows (ix2 z p)
    = acc (ix2 z p) + ∑ j : Fin 512, (k0_pay3 x1 rows (ix2 j p) * k0_pay3 x1 rows (ix2 j p))
        * (k0_pay3 x1 rows (ix2 j p) * k0_pay3 x1 rows (ix2 j p)) := by
  unfold k0_pay8 k0_pay4; exact colsum_apply _ _ z p

/-- Lane p of the running rows before trip k: the chunk-by-chunk totals of y, y², y³, y⁴. -/
theorem sums_lane (x0 : Vec Ideal S8192x1024 .bf16) (k : ℕ) (hk : k ≤ 16) :
    (sums x0 x1 k).1 (ix2 z p) = chunkAcc (fun b => proj x0 x1 p b) k
    ∧ (sums x0 x1 k).2.1 (ix2 z p) = chunkAcc (fun b => proj x0 x1 p b * proj x0 x1 p b) k
    ∧ (sums x0 x1 k).2.2.1 (ix2 z p) = chunkAcc (fun b => (proj x0 x1 p b * proj x0 x1 p b) * proj x0 x1 p b) k
    ∧ (sums x0 x1 k).2.2.2 (ix2 z p)
        = chunkAcc (fun b => (proj x0 x1 p b * proj x0 x1 p b) * (proj x0 x1 p b * proj x0 x1 p b)) k := by
  induction k with
  | zero => exact ⟨rfl, rfl, rfl, rfl⟩
  | succ k ih =>
    have hlt : k < k0_t1_loop.trips := by rw [trips_eq]; omega
    obtain ⟨h1, h2, h3, h4⟩ := ih (by omega)
    rw [sums]; unfold sumsStep; rw [dif_pos hlt]
    try dsimp only
    refine ⟨?_, ?_, ?_, ?_⟩
    · rw [pay5_apply, h1, chunkAcc]
      exact congrArg (_ + ·) (Finset.sum_congr rfl fun j _ => prod_apply x0 x1 ⟨k, hlt⟩ j p)
    · rw [pay6_apply, h2, chunkAcc]
      exact congrArg (_ + ·) (Finset.sum_congr rfl fun j _ => by rw [prod_apply x0 x1 ⟨k, hlt⟩ j p])
    · rw [pay7_apply, h3, chunkAcc]
      exact congrArg (_ + ·) (Finset.sum_congr rfl fun j _ => by rw [prod_apply x0 x1 ⟨k, hlt⟩ j p])
    · rw [pay8_apply, h4, chunkAcc]
      exact congrArg (_ + ·) (Finset.sum_congr rfl fun j _ => by rw [prod_apply x0 x1 ⟨k, hlt⟩ j p])

/-- Lane p of the block a step leaves: the loss of the row from its four raw sums. -/
theorem bodyOut_lane (x0 : Vec Ideal S8192x1024 .bf16) :
    bodyOut (F := Ideal) x0 x1 (ix1 p)
      = fromSums (∑ b : Fin 8192, proj x0 x1 p b.val)
          (∑ b : Fin 8192, proj x0 x1 p b.val * proj x0 x1 p b.val)
          (∑ b : Fin 8192, (proj x0 x1 p b.val * proj x0 x1 p b.val) * proj x0 x1 p b.val)
          (∑ b : Fin 8192, (proj x0 x1 p b.val * proj x0 x1 p b.val) * (proj x0 x1 p b.val * proj x0 x1 p b.val)) := by
  obtain ⟨h1, h2, h3, h4⟩ := sums_lane x1 (0 : Fin 1) p x0 16 le_rfl
  rw [chunkAcc_sixteen] at h1 h2 h3 h4
  rw [← h1, ← h2, ← h3, ← h4]
  unfold bodyOut
  rw [trips_eq]
  unfold k0_pay1
  try dsimp only
  rw [shapeCast_1a_a_apply]
  rfl

end Cert.KernelIdeal.Lane

end
-- ==== Proof.LibMergeLead.lean ====
/-
  Rank-3 arrays whose two leading axes are merged into one, read by coordinates.

  A row-major [a, b, c] array and the [a·b, c] matrix with the same elements in the same order: row p·b + q of the
  matrix is row (p, q) of the array. Both directions of the recast are read at an entry here (`merge_apply`,
  `split_apply`), for any extents; the merged extent is a separate number `n` with the equation `r = p·b + q` between
  the row numbers asked of the caller, so that a literal extent (2048 for 32·64) matches as written.

  Also a [b, c] matrix given a leading unit axis and repeated along it a times: entry (p, q, k) of the result is
  entry (q, k) of the matrix (`addLead_apply`, `repeatLead_apply`).
-/
import Idealize.ShloMosaic.Lib.Pipeline.Value
import Idealize.ShloMosaic.Lib.ValueIdx

noncomputable section

namespace Idealize.ShloMosaic.MergeLead

open Idealize.ShloMosaic Idealize.ShloMosaic.ValueIdx

variable {α : Type} {a b c n : Nat}

/-- The [a, b, c] array recast as an [n, c] matrix, at row r = p·b + q and column k, is the array at (p, q, k). -/
theorem merge_apply (v : (⟨3, ![a, b, c]⟩ : Shape).Idx → α) (h : (⟨3, ![a, b, c]⟩ : Shape).ShapeCasts ⟨2, ![n, c]⟩)
    (p : Fin a) (q : Fin b) (k : Fin c) (r : Fin n) (hr : r.val = p.val * b + q.val) :
    shapeCast ⟨2, ![n, c]⟩ v h (ix2 r k) = v (ix3 p q k) :=
  shapeCast_apply v h (ix2 r k) (ix3 p q k) (by
    rw [Shape.rowMajor_val_three, Shape.rowMajor_val_two]
    show (p.val * b + q.val) * c + k.val = r.val * c + k.val
    rw [hr])

/-- The [n, c] matrix recast as an [a, b, c] array, at (p, q, k), is the matrix at row r = p·b + q and column k. -/
theorem split_apply (v : (⟨2, ![n, c]⟩ : Shape).Idx → α) (h : (⟨2, ![n, c]⟩ : Shape).ShapeCasts ⟨3, ![a, b, c]⟩)
    (p : Fin a) (q : Fin b) (k : Fin c) (r : Fin n) (hr : r.val = p.val * b + q.val) :
    shapeCast ⟨3, ![a, b, c]⟩ v h (ix3 p q k) = v (ix2 r k) :=
  shapeCast_apply v h (ix3 p q k) (ix2 r k) (by
    rw [Shape.rowMajor_val_three, Shape.rowMajor_val_two]
    show r.val * c + k.val = (p.val * b + q.val) * c + k.val
    rw [hr])

/-- A [b, c] matrix given a leading unit axis: entry (0, q, k) is entry (q, k). -/
theorem addLead_apply (v : (⟨2, ![b, c]⟩ : Shape).Idx → α) (h : (⟨2, ![b, c]⟩ : Shape).ShapeCasts ⟨3, ![1, b, c]⟩)
    (z : Fin 1) (q : Fin b) (k : Fin c) :
    shapeCast ⟨3, ![1, b, c]⟩ v h (ix3 z q k) = v (ix2 q k) :=
  shapeCast_apply v h (ix3 z q k) (ix2 q k) (by
    rw [Shape.rowMajor_val_three, Shape.rowMajor_val_two]
    show q.val * c + k.val = (z.val * b + q.val) * c + k.val
    have hz : z.val = 0 := by have := z.isLt; omega
    rw [hz, Nat.zero_mul, Nat.zero_add])

/-- A [1, b, c] array repeated a times along its unit axis: entry (p, q, k) is entry (0, q, k). -/
theorem repeatLead_apply (v : (⟨3, ![1, b, c]⟩ : Shape).Idx → α) (h : (⟨3, ![1, b, c]⟩ : Shape).Broadcasts ⟨3, ![a, b, c]⟩)
    (p : Fin a) (q : Fin b) (k : Fin c) :
    broadcastTo ⟨3, ![a, b, c]⟩ v h (ix3 p q k) = v (ix3 (0 : Fin 1) q k) :=
  broadcastTo_apply v h (ix3 p q k) (ix3 (0 : Fin 1) q k) (fun d => by
    match d with
    | ⟨0, _⟩ => show 0 = if (1 : Nat) = 1 then 0 else p.val; rw [if_pos rfl]
    | ⟨1, _⟩ =>
      show q.val = if b = 1 then 0 else q.val
      split
      · have := q.isLt; omega
      · rfl
    | ⟨2, _⟩ =>
      show k.val = if c = 1 then 0 else k.val
      split
      · have := k.isLt; omega
      · rfl)

end Idealize.ShloMosaic.MergeLead

end
-- ==== Proof.ArrayValue.lean ====
/-
  The array of 4096 row losses the kernel leaves, and its result.

  Before the region the host recasts the projection sets [32, 128, 1024] as the [4096, 1024] matrix whose row
  128 k + p is projection p of set k (the changes of float format are identities on the extended reals). Grid step
  t sees the whole batch block and rows 256 t … 256 t + 255 of that matrix, and writes entries 256 t … 256 t + 255 of
  the output. So entry r of the output is the loss, from the four raw sums, of the row
      y b = ∑_d emb (b, d) · proj (r / 128, r % 128, d),
  the sixteen blocks tile the 4096 entries, and after the region the host averages them.
-/
import proofs.«107761_j35055523070528_2_alg».proof.Proof.LaneValue
import proofs.«107761_j35055523070528_2_alg».proof.Proof.LibMergeLead
import Idealize.ShloMosaic.Lib.Pipeline.Value
import Idealize.ShloMosaic.Lib.StableHlo.Run
import Idealize.ShloMosaic.Lib.ValueIdx

set_option maxRecDepth 16384

noncomputable section

namespace Cert.KernelIdeal.ArrayValue

open Cert.KernelIdeal Cert.KernelIdeal.Gen Cert.KernelIdeal.Body Cert.KernelIdeal.Lane Cert.RowLoss
open Idealize.ShloMosaic Idealize.ShloMosaic.TcCoe Idealize.ShloMosaic.Tactic Idealize.ShloMosaic.StableHlo
open Idealize.ShloMosaic.ValueIdx
open Idealize.SL Idealize.SL.Sem
open scoped BigOperators

/-! ## The specification -/

/-- The projected value of batch row b along direction r = 128 k + p (projection p of set k). -/
def rowVal (a0 : S8192x1024.Idx → EReal) (a1 : S32x128x1024.Idx → EReal) (r : Fin 4096) (b : Fin 8192) : EReal :=
  ∑ d : Fin 1024, a0 (ix2 b d) * a1 (ix3 ⟨r.val / 128, by omega⟩ ⟨r.val % 128, Nat.mod_lt _ (by norm_num)⟩ d)

/-- The array of row losses as a function of the two argument arrays. -/
def lossArr (a0 : S8192x1024.Idx → EReal) (a1 : S32x128x1024.Idx → EReal) : S4096.Idx → EReal := fun i =>
  fromSums (∑ b : Fin 8192, rowVal a0 a1 (i 0) b)
    (∑ b : Fin 8192, rowVal a0 a1 (i 0) b * rowVal a0 a1 (i 0) b)
    (∑ b : Fin 8192, (rowVal a0 a1 (i 0) b * rowVal a0 a1 (i 0) b) * rowVal a0 a1 (i 0) b)
    (∑ b : Fin 8192, (rowVal a0 a1 (i 0) b * rowVal a0 a1 (i 0) b) * (rowVal a0 a1 (i 0) b * rowVal a0 a1 (i 0) b))

/-- The host's closing average of a vector of 4096 losses. -/
def average (v : S4096.Idx → EReal) : S_.Idx → EReal :=
  Host.divf (Host.reduceAdd (F := Ideal) (v : FVec Ideal S4096 .f32) (constant (F := Ideal) S_ .f32 0x00000000#32) reducesTo_S4096_S_d0 h_S_)
    (constant (F := Ideal) S_ .f32 0x45800000#32)

/-! ## One grid step -/

/-- A step whose batch block is the array a0 and whose projection rows are rows 256 t + p of the recast a1 leaves, at
    lane p, entry 256 t + p of `lossArr`. -/
theorem step_lane (a0 : S8192x1024.Idx → EReal) (a1 : S32x128x1024.Idx → EReal)
    (x0 : Vec Ideal S8192x1024 .bf16) (x1 : Vec Ideal S256x1024 .bf16) (t : ℕ) (ht : t < 16)
    (h0 : ∀ (b : Fin 8192) (d : Fin 1024), x0 (ix2 b d) = a0 (ix2 b d))
    (h1 : ∀ (p : Fin 256) (d : Fin 1024), x1 (ix2 p d)
      = a1 (ix3 ⟨(256 * t + p.val) / 128, by omega⟩ ⟨(256 * t + p.val) % 128, Nat.mod_lt _ (by norm_num)⟩ d))
    (p : Fin 256) (i : S4096.Idx) (hi : (i 0).val = 256 * t + p.val) :
    bodyOut (F := Ideal) x0 x1 (ix1 p) = lossArr a0 a1 i := by
  have e : ∀ b : Fin 8192, proj x0 x1 p b.val = rowVal a0 a1 (i 0) b := fun b => by
    unfold proj rowVal
    rw [dif_pos b.isLt]
    refine Finset.sum_congr rfl fun d _ => ?_
    rw [h0, h1]
    congr 2
    refine funext fun a => Fin.ext ?_
    match a with
    | ⟨0, _⟩ => show (256 * t + p.val) / 128 = (i 0).val / 128; rw [hi]
    | ⟨1, _⟩ => show (256 * t + p.val) % 128 = (i 0).val % 128; rw [hi]
    | ⟨2, _⟩ => rfl
  rw [bodyOut_lane]
  unfold lossArr
  simp only [e]

/-! ## The arrays the region finds -/

variable (m : (ℓ : Loc nD τ sig) → Buf (Elt Ideal) ℓ) (ρ : Dev nD → PrngReg)

/-- The batch array as the region finds it: the argument (the change of format is the identity). -/
theorem V_v0 (c : Dev nD) :
    (V m c main_v0 : S8192x1024.Idx → EReal) = (m ((c : Thread nD τ).loc main_arg0) : S8192x1024.Idx → EReal) := by
  show StableHlo.after hostOps0 (fun b => m (c, b)) (Proc.devRef .tc main_v0) = _
  after_results
  rfl

/-- The projection matrix as the region finds it: the argument recast. -/
theorem V_v2 (c : Dev nD) :
    (V m c main_v2 : S4096x1024.Idx → EReal)
      = shapeCast S4096x1024 (m ((c : Thread nD τ).loc main_arg1) : S32x128x1024.Idx → EReal) shapeCasts_S32x128x1024_S4096x1024 := by
  show StableHlo.after hostOps0 (fun b => m (c, b)) (Proc.devRef .tc main_v2) = _
  after_results
  rfl

/-- The printed index maps over the grid: the batch block never moves, projection block and output block are the step. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0 ∧ win0_2.index t (0 : Fin 1) = t.val :=
  (by decide +kernel : ∀ t : Fin grid0.N, _)

theorem point_lt (t : Fin cfg0.N) : t.val < 16 := Nat.lt_of_lt_of_le t.isLt (le_of_eq N_0)

/-- WHAT STEP t WRITES BACK is block t of `lossArr` of the argument arrays. -/
theorem flushed_eq (c : Dev nD) (t : Fin cfg0.N) :
    (dats m 0 c).flushed 2 t = ((cfg0.win 2).blk t).view.read (Elt Ideal)
      (lossArr (m ((c : Thread nD τ).loc main_arg0)) (m ((c : Thread nD τ).loc main_arg1))) := by
  show (cfg0.win 2).cut (grid0.coords t) ((dats m 0 c).after 2 t) = _
  rw [after0_2]
  unfold outsAt0
  rw [Body.out_eq]
  obtain ⟨e00, e01, e10, e11, e20⟩ := idx_facts t
  have ht := point_lt t
  funext y
  show bodyOut (F := Ideal) (iblk m c 0 t) (iblk m c 1 t) y = _
  rw [eq_ix1 y]
  refine step_lane _ _ (iblk m c 0 t) (iblk m c 1 t) t.val ht ?_ ?_ (y 0) _ ?_
  · intro b d
    show V m c main_v0 (((cfg0.win 0).blk t).view.emb (ix2 b d)) = _
    rw [V_v0]
    refine congrArg _ (funext fun a => Fin.ext ?_)
    match a with
    | ⟨0, _⟩ => show win0_0.index t (0 : Fin 2) * 8192 + 1 * b.val = b.val; omega
    | ⟨1, _⟩ => show win0_0.index t (1 : Fin 2) * 1024 + 1 * d.val = d.val; omega
  · intro p d
    show V m c main_v2 (((cfg0.win 1).blk t).view.emb (ix2 p d)) = _
    rw [V_v2]
    have hr : 256 * t.val + p.val < 4096 := by omega
    have hemb : ((cfg0.win 1).blk t).view.emb (ix2 p d) = ix2 (⟨256 * t.val + p.val, hr⟩ : Fin 4096) d := by
      refine funext fun a => Fin.ext ?_
      match a with
      | ⟨0, _⟩ => show win0_1.index t (0 : Fin 2) * 256 + 1 * p.val = 256 * t.val + p.val; omega
      | ⟨1, _⟩ => show win0_1.index t (1 : Fin 2) * 1024 + 1 * d.val = d.val; omega
    rw [hemb]
    exact MergeLead.merge_apply _ _ _ _ d _ (by
      show 256 * t.val + p.val = (256 * t.val + p.val) / 128 * 128 + (256 * t.val + p.val) % 128
      omega)
  · show win0_2.index t (0 : Fin 1) * 256 + 1 * (y 0).val = 256 * t.val + (y 0).val
    omega

/-- An index of the output is in step t's block iff it is among entries 256 t … 256 t + 255. -/
theorem mem_blk (t : Fin cfg0.N) (i : S4096.Idx) :
    i ∈ ((cfg0.win 2).blk t).view.set ↔ ∀ a : Fin 1, win0_2.index t a * S256.size a ≤ (i a).val
      ∧ (i a).val < win0_2.index t a * S256.size a + S256.size a := by
  show i ∈ ((View.whole main_v3).slice (win0_2.rect t)).set ↔ _
  rw [View.set_slice_whole, Rect.mem_set_unit]
  exact Iff.rfl

/-- The sixteen blocks tile the output: entry i is in the block of step i / 256. -/
theorem cover (i : S4096.Idx) : ∃ t : Fin cfg0.N, (cfg0.win 2).flush t = true ∧ i ∈ ((cfg0.win 2).blk t).view.set := by
  have hi : (i 0).val < 4096 := (i 0).isLt
  refine ⟨⟨(i 0).val / 256, by rw [show cfg0.N = 16 from N_0]; omega⟩, flush0_2 _, ?_⟩
  rw [mem_blk]
  intro a
  obtain ⟨-, -, -, -, e20⟩ := idx_facts ⟨(i 0).val / 256, by rw [show cfg0.N = 16 from N_0]; omega⟩
  match a with
  | ⟨0, _⟩ =>
    show win0_2.index _ (0 : Fin 1) * 256 ≤ (i 0).val ∧ (i 0).val < win0_2.index _ (0 : Fin 1) * 256 + 256
    rw [e20]
    show (i 0).val / 256 * 256 ≤ (i 0).val ∧ (i 0).val < (i 0).val / 256 * 256 + 256
    omega

/-- THE OUTPUT ARRAY after the region: `lossArr` of the argument arrays. -/
theorem final (c : Dev nD) :
    (dats m 0 c).arrAt 2 cfg0.N = lossArr (m ((c : Thread nD τ).loc main_arg0)) (m ((c : Thread nD τ).loc main_arg1)) :=
  (dats m 0 c).arrAt_eq_of_cover 2 _ (fun t _ => flushed_eq m c t) cover

/-! ## The result -/

/-- The host's lines after the region average the output array. -/
theorem tail_eq (c : Dev nD) :
    Pipeline.afterTail₀ cfgs (dats m) 0 (V0 m) [hostOps1] c main_v5
      = average (lossArr (m ((c : Thread nD τ).loc main_arg0)) (m ((c : Thread nD τ).loc main_arg1))) := by
  unfold Pipeline.afterTail₀
  show StableHlo.after hostOps1 _ (Proc.devRef .tc main_v5) = _
  after_results
  unfold average
  exact congrArg (fun v : S4096.Idx → EReal => Host.divf (Host.reduceAdd (F := Ideal) (v : FVec Ideal S4096 .f32)
      (constant (F := Ideal) S_ .f32 0x00000000#32) reducesTo_S4096_S_d0 h_S_) (constant (F := Ideal) S_ .f32 0x45800000#32))
    ((Pipeline.withArrays_arr spec0 launch0.win.arr_inj c _ _ 2).trans (final m c))

/-- THE RUN, READ: the kernel ends with the average of `lossArr` of its arguments in its result, the arguments unchanged. -/
theorem run : θ_run defs (onTc (τ := τ) (main (F := Ideal))) ⟨m, fun _ => 0, ρ⟩ fun r => ∀ c : Dev nD,
      r.2.mem ((c : Thread nD τ).loc main_v5)
        = average (lossArr (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.ArrayValue

end
-- ==== Proof.RefRow.lean ====
/-
  The reference's per-row loss, read at a row, on the extended reals.

  The reference forms the [4096, 8192] matrix of projected values (row r = 128 k + p is projection p of set k; entry
  (r, b) is ∑_d proj (k, p, d) · emb (b, d)), and works row by row: the mean of the row, its mean squared deviation,
  the spread std = √var + ε, the standardised values, the means of their third and fourth powers, and the penalty.
  Entry r of the vector of losses it averages at the end is `fromValues` of row r.
-/
import proofs.«107761_j35055523070528_2_alg».proof.Proof.Gen.ReferenceIdeal.Read
import proofs.«107761_j35055523070528_2_alg».proof.Proof.RowLoss
import Idealize.ShloMosaic.Lib.ValueIdx

set_option maxRecDepth 16384

noncomputable section

namespace Cert.ReferenceIdeal.RefValue

open Cert.ReferenceIdeal Cert.ReferenceIdeal.Gen Cert.ReferenceIdeal.Read Cert.RowLoss
open Idealize.ShloMosaic Idealize.ShloMosaic.ValueIdx
open scoped BigOperators

variable (x0 : (⟨S8192x1024, .f32⟩ : BufTy).Contents (Elt Ideal)) (x1 : (⟨S32x128x1024, .f32⟩ : BufTy).Contents (Elt Ideal))

/-- Row r of the matrix of projected values. -/
def row (r : Fin 4096) (b : Fin 8192) : EReal := val_main_v1 (F := Ideal) x0 x1 (ix2 r b)

/-! The index maps of the row reductions and of the column broadcasts, at coordinates. -/

theorem i2 (r : Fin 4096) (b : Fin 8192) : idx_main_v2 (ix1 r) b = ix2 r b :=
  funext fun a => Fin.ext (by match a with | ⟨0, _⟩ => rfl | ⟨1, _⟩ => rfl)
theorem i9 (r : Fin 4096) (b : Fin 8192) : idx_main_v9 (ix1 r) b = ix2 r b :=
  funext fun a => Fin.ext (by match a with | ⟨0, _⟩ => rfl | ⟨1, _⟩ => rfl)
theorem i23 (r : Fin 4096) (b : Fin 8192) : idx_main_v23 (ix1 r) b = ix2 r b :=
  funext fun a => Fin.ext (by match a with | ⟨0, _⟩ => rfl | ⟨1, _⟩ => rfl)
theorem i28 (r : Fin 4096) (b : Fin 8192) : idx_main_v28 (ix1 r) b = ix2 r b :=
  funext fun a => Fin.ext (by match a with | ⟨0, _⟩ => rfl | ⟨1, _⟩ => rfl)
theorem i6 (r : Fin 4096) (b : Fin 8192) : idx_main_v5 (idx_main_v6 (ix2 r b)) = ix1 r :=
  funext fun a => Fin.ext (by match a with | ⟨0, _⟩ => rfl)
theorem i16 (r : Fin 4096) (b : Fin 8192) : idx_main_v15 (idx_main_v16 (ix2 r b)) = ix1 r :=
  funext fun a => Fin.ext (by match a with | ⟨0, _⟩ => rfl)
theorem i19 (r : Fin 4096) (b : Fin 8192) : idx_main_v18 (idx_main_v19 (ix2 r b)) = ix1 r :=
  funext fun a => Fin.ext (by match a with | ⟨0, _⟩ => rfl)

/-- The mean of row r. -/
theorem mean_row (r : Fin 4096) : val_main_v4 (F := Ideal) x0 x1 (ix1 r) = meanOf (row x0 x1 r) := by
  simp only [val_main_v4_apply, val_main_v2_apply, val_main_v3_apply, val_main_cst_0_apply, val_main_cst_apply, i2]
  rfl

/-- A deviation from the row's mean. -/
theorem dev_row (r : Fin 4096) (b : Fin 8192) :
    val_main_v7 (F := Ideal) x0 x1 (ix2 r b) = row x0 x1 r b - meanOf (row x0 x1 r) := by
  simp only [val_main_v7_apply, val_main_v6_apply, val_main_v5_apply, i6, mean_row]
  rfl

/-- The spread of row r. -/
theorem std_row (r : Fin 4096) : val_main_v14 (F := Ideal) x0 x1 (ix1 r) = stdOf (row x0 x1 r) := by
  simp only [val_main_v14_apply, val_main_v12_apply, val_main_v11_apply, val_main_v9_apply, val_main_v10_apply,
    val_main_cst_2_apply, val_main_cst_1_apply, val_main_v13_apply, val_main_cst_3_apply, i9, val_main_v8_apply, dev_row]
  rfl

/-- A standardised value of row r. -/
theorem z_row (r : Fin 4096) (b : Fin 8192) :
    val_main_v20 (F := Ideal) x0 x1 (ix2 r b) = zOf (row x0 x1 r) b := by
  simp only [val_main_v20_apply, val_main_v17_apply, val_main_v16_apply, val_main_v15_apply, i16, mean_row,
    val_main_v19_apply, val_main_v18_apply, i19, std_row]
  rfl

/-- The mean third power of the standardised values of row r. -/
theorem skew_row (r : Fin 4096) :
    val_main_v25 (F := Ideal) x0 x1 (ix1 r)
      = Ideal.div (w0 + ∑ b, (zOf (row x0 x1 r) b * zOf (row x0 x1 r) b) * zOf (row x0 x1 r) b) wN := by
  simp only [val_main_v25_apply, val_main_v23_apply, val_main_v24_apply, val_main_cst_5_apply, val_main_cst_4_apply, i23,
    val_main_v22_apply, val_main_v21_apply, z_row]
  rfl

/-- The mean fourth power of the standardised values of row r. -/
theorem kurt_row (r : Fin 4096) :
    val_main_v30 (F := Ideal) x0 x1 (ix1 r)
      = Ideal.div (w0 + ∑ b, (zOf (row x0 x1 r) b * zOf (row x0 x1 r) b)
          * (zOf (row x0 x1 r) b * zOf (row x0 x1 r) b)) wN := by
  simp only [val_main_v30_apply, val_main_v28_apply, val_main_v29_apply, val_main_cst_7_apply, val_main_cst_6_apply, i28,
    val_main_v27_apply, val_main_v26_apply, z_row]
  rfl

/-- Entry r of the vector of losses: the loss of row r from its values. -/
theorem loss_row (r : Fin 4096) : val_main_v45 (F := Ideal) x0 x1 (ix1 r) = fromValues (row x0 x1 r) := by
  simp only [val_main_v45_apply, val_main_v44_apply, val_main_v43_apply, val_main_cst_11_apply, val_main_v42_apply,
    val_main_v41_apply, val_main_v40_apply, val_main_cst_10_apply, val_main_v39_apply, val_main_v38_apply,
    val_main_v37_apply, val_main_cst_9_apply, val_main_v36_apply, val_main_v35_apply, val_main_v34_apply,
    val_main_v33_apply, val_main_v32_apply, val_main_cst_8_apply, val_main_v31_apply, mean_row, std_row, skew_row,
    kurt_row]
  rfl

/-- Entry (r, b) of the matrix of projected values, from the arguments: projection r % 128 of set r / 128 against
    batch row b. -/
theorem row_apply (r : Fin 4096) (b : Fin 8192) :
    row x0 x1 r b = ∑ d : Fin 1024,
      x1 (ix3 ⟨r.val / 128, by omega⟩ ⟨r.val % 128, Nat.mod_lt _ (by norm_num)⟩ d) * x0 (ix2 b d) := by
  unfold row
  rw [val_main_v1_apply, val_main_v0_apply]
  refine Finset.sum_congr rfl fun d _ => ?_
  have hr := r.isLt
  have hb := b.isLt
  congr 1
  · refine congrArg x1 (funext fun a => Fin.ext ?_)
    match a with
    | ⟨0, _⟩ => show (r.val * 8192 + b.val) / 1048576 = r.val / 128; omega
    | ⟨1, _⟩ => show (r.val * 8192 + b.val) / 8192 % 128 = r.val % 128; omega
    | ⟨2, _⟩ => rfl
  · refine congrArg x0 (funext fun a => Fin.ext ?_)
    match a with
    | ⟨0, _⟩ => show (r.val * 8192 + b.val) % 8192 = b.val; omega
    | ⟨1, _⟩ => rfl

end Cert.ReferenceIdeal.RefValue

end
-- ==== Proof.Agreement.lean ====
/-
  The two programs agree on real inputs.

  Entry r of the kernel's array of losses is the loss, from the four raw sums, of the row y b = ∑_d emb (b, d) ·
  proj (r / 128, r % 128, d); entry r of the reference's vector of losses is the loss, from the values, of the row
  ∑_d proj (r / 128, r % 128, d) · emb (b, d) — the same row, the factors commuted. When every input entry is real the
  row is real, and the two losses agree (the bridge of RowLoss.lean). Both programs then average the 4096 entries in
  the same way.
-/
import proofs.«107761_j35055523070528_2_alg».proof.Proof.ArrayValue
import proofs.«107761_j35055523070528_2_alg».proof.Proof.RefRow

set_option maxRecDepth 16384

noncomputable section

namespace Cert.Agreement

open Cert.RowLoss Cert.KernelIdeal.ArrayValue
open Idealize.ShloMosaic Idealize.ShloMosaic.ValueIdx
open scoped BigOperators

variable (a0 : (⟨Cert.ReferenceIdeal.S8192x1024, .f32⟩ : BufTy).Contents (Elt Ideal))
  (a1 : (⟨Cert.ReferenceIdeal.S32x128x1024, .f32⟩ : BufTy).Contents (Elt Ideal))

/-- Row by row: the kernel's entry and the reference's are the two arrangements of one real row. -/
theorem rows_agree (h0 : ∀ i, ∃ r : ℝ, a0 i = (r : EReal)) (h1 : ∀ i, ∃ r : ℝ, a1 i = (r : EReal)) (r : Fin 4096) :
    lossArr a0 a1 (ix1 r) = fromValues (Cert.ReferenceIdeal.RefValue.row a0 a1 r) := by
  choose A0 hA0 using h0
  choose A1 hA1 using h1
  have hk : ∀ b : Fin 8192, rowVal a0 a1 r b
      = ((∑ d : Fin 1024, A0 (ix2 b d) * A1 (ix3 ⟨r.val / 128, by omega⟩ ⟨r.val % 128, Nat.mod_lt _ (by norm_num)⟩ d) : ℝ) : EReal) :=
    fun b => by
      unfold rowVal
      simp only [hA0, hA1, ← EReal.coe_mul]
      exact (Cert.Lib.RealImage.coe_sum _ _).symm
  have hr : Cert.ReferenceIdeal.RefValue.row a0 a1 r
      = fun b : Fin 8192 => ((∑ d : Fin 1024, A0 (ix2 b d) * A1 (ix3 ⟨r.val / 128, by omega⟩ ⟨r.val % 128, Nat.mod_lt _ (by norm_num)⟩ d) : ℝ) : EReal) :=
    funext fun b => by
      rw [Cert.ReferenceIdeal.RefValue.row_apply]
      simp only [hA0, hA1, ← EReal.coe_mul]
      rw [← Cert.Lib.RealImage.coe_sum]
      exact congrArg _ (Finset.sum_congr rfl fun d _ => mul_comm _ _)
  unfold lossArr
  show fromSums (∑ b : Fin 8192, rowVal a0 a1 r b) (∑ b : Fin 8192, rowVal a0 a1 r b * rowVal a0 a1 r b)
      (∑ b : Fin 8192, (rowVal a0 a1 r b * rowVal a0 a1 r b) * rowVal a0 a1 r b)
      (∑ b : Fin 8192, (rowVal a0 a1 r b * rowVal a0 a1 r b) * (rowVal a0 a1 r b * rowVal a0 a1 r b)) = _
  simp only [hk]
  rw [hr]
  exact fromSums_eq_fromValues _ (by rw [Fintype.card_fin]; norm_num)

/-- The kernel's result is the reference's. -/
theorem result_eq (h0 : ∀ i, ∃ r : ℝ, a0 i = (r : EReal)) (h1 : ∀ i, ∃ r : ℝ, a1 i = (r : EReal)) :
    average (lossArr a0 a1) = Cert.ReferenceIdeal.Read.val_main_v47 (F := Ideal) a0 a1 := by
  have e : (lossArr a0 a1 : Cert.KernelIdeal.S4096.Idx → EReal) = Cert.ReferenceIdeal.Read.val_main_v45 (F := Ideal) a0 a1 :=
    funext fun i => by
      obtain ⟨r, rfl⟩ : ∃ r : Fin 4096, i = ix1 r := ⟨i 0, eq_ix1 (n := 4096) i⟩
      exact (rows_agree a0 a1 h0 h1 r).trans (Cert.ReferenceIdeal.RefValue.loss_row a0 a1 r).symm
  rw [e]
  rfl

end Cert.Agreement

end
-- ==== Proof.LibFiniteEntry.lean ====
/-
  GENERAL LEMMAS: the finiteness test of one entry, read back on the extended reals.
  A precondition "every input is finite" tests each entry x by comparing its absolute value max(x, −x) strictly below the
  single-precision word of +∞.
  • `inf_word`: that word denotes the top element ⊤;
  • `real_of_abs_lt`: an extended real that passes the test is the image of a real number (at ⊤ and at ⊥ the absolute
    value is ⊤ itself, which is not below ⊤).
-/
import Idealize.ShloMosaic.PureOps.Ideal

noncomputable section

namespace Cert.Lib.FiniteEntry

open Idealize.ShloMosaic

/-- The single-precision word of +∞ denotes the top of the extended reals. -/
theorem inf_word : Ideal.ofBits .f32 0x7F800000#32 = (⊤ : EReal) := by
  simp [Ideal.ofBits, Ideal.ieee]

/-- An extended real whose absolute value compares strictly below the word of +∞ is a real number. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

end Cert.Lib.FiniteEntry

end
-- ==== Proof.FiniteInputs.lean ====
/-
  The precondition read back: every entry of both inputs is a real number.

  The precondition tests each input entrywise — |x| strictly below the word of +∞ —, folds each array of answers by
  "and" from true, and conjoins the two results. The whole being true, each fold is true, so each answer is true, and
  an extended real whose absolute value is below +∞ is the image of a real.
-/
import proofs.«107761_j35055523070528_2_alg».proof.Pre_finite_inputs
import proofs.«107761_j35055523070528_2_alg».proof.Proof.LibFiniteEntry
import Idealize.ShloMosaic.PureOps.Ideal.Laws
import Idealize.ShloMosaic.Lib.ReduceAll
import Idealize.ShloMosaic.Lib.ValueIdx

noncomputable section

namespace Cert.FiniteInputs

open Idealize.ShloMosaic

instance : Subsingleton Cert.Pre_finite_inputs.S_.Idx := ⟨fun a b => funext fun d => d.elim0⟩

/-- Under the precondition every entry of both inputs is a real. -/
theorem real_entries [Cert.Pre_finite_inputs.Facts]
    (a0 : FVec Ideal Cert.Pre_finite_inputs.S8192x1024 .f32) (a1 : FVec Ideal Cert.Pre_finite_inputs.S32x128x1024 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨hA, hB⟩ := IntOp.andi_eq_one.mp h0
  constructor
  · intro i
    exact Cert.Lib.FiniteEntry.real_of_abs_lt (a0 i) (Host.reduce_andi_all _ _ _ _ _ hA i)
  · intro i
    exact Cert.Lib.FiniteEntry.real_of_abs_lt (a1 i) (Host.reduce_andi_all _ _ _ _ _ hB i)

end Cert.FiniteInputs

end
-- ==== Proof.lean ====
/-
  The certificate of a sketched-moments regularisation loss: 8192 embeddings of width 1024 are projected along 4096
  directions (32 sets of 128), and each direction's 8192 projected values are scored by
      mean² + (std − 1)² + 0.1 · skew² + 0.1 · (kurt − 3)²,     std = √var + ε,
  the result being the average of the 4096 scores.

  The reference centres and standardises the values of a direction and averages their third and fourth powers. The
  kernel never forms a direction's values at once: sixteen grid steps of 256 directions each, and in each step sixteen
  trips over 512 embeddings, accumulate the four raw power sums ∑ y, ∑ y², ∑ y³, ∑ y⁴ of every direction, from which
  it takes var = E y² − mean² and the central third and fourth moments by their expansions in the raw moments, divided by
  std³ and std⁴.

  On the extended reals the changes of float format are identities, a matrix product into a zero accumulator is the
  host's contraction, and sums may be regrouped; what joins the two arrangements is algebra that needs every value to
  be a REAL (distributing a factor over a sum, cancelling std), which is what the precondition — all inputs finite —
  gives: the projected values are then real, var is a mean of squares so its root is the real root, and std ≥ ε > 0.
  The modules: MomentAlgebra (the identities over ℝ), RowLoss (one direction's score in both arrangements, on the
  extended reals, and their agreement on real data), BodyValue and LaneValue (what a grid step leaves, lane by lane),
  ArrayValue (the kernel's array of scores and its result), RefRow (the reference's vector of scores), FiniteInputs
  (the precondition read back), Agreement (the two results are equal).
-/
import proofs.«107761_j35055523070528_2_alg».proof.Defs
import proofs.«107761_j35055523070528_2_alg».proof.Proof.Gen.Kernel
import proofs.«107761_j35055523070528_2_alg».proof.Proof.Gen.Kernel.Skeleton
import proofs.«107761_j35055523070528_2_alg».proof.Proof.Gen.Kernel.Loops
import proofs.«107761_j35055523070528_2_alg».proof.Proof.Gen.Kernel.Launch
import proofs.«107761_j35055523070528_2_alg».proof.Proof.Gen.Kernel.Points
import proofs.«107761_j35055523070528_2_alg».proof.Proof.Gen.Kernel.Frame
import proofs.«107761_j35055523070528_2_alg».proof.Proof.Gen.KernelIdeal
import proofs.«107761_j35055523070528_2_alg».proof.Proof.Gen.KernelIdeal.Skeleton
import proofs.«107761_j35055523070528_2_alg».proof.Proof.Gen.KernelIdeal.Loops
import proofs.«107761_j35055523070528_2_alg».proof.Proof.Gen.KernelIdeal.Launch
import proofs.«107761_j35055523070528_2_alg».proof.Proof.Gen.KernelIdeal.Points
import proofs.«107761_j35055523070528_2_alg».proof.Proof.Gen.KernelIdeal.Frame
import proofs.«107761_j35055523070528_2_alg».proof.Proof.Gen.ReferenceIdeal
import proofs.«107761_j35055523070528_2_alg».proof.Proof.Gen.Pre_finite_inputs
import proofs.«107761_j35055523070528_2_alg».proof.Proof.Gen.ReferenceIdeal.Run
import proofs.«107761_j35055523070528_2_alg».proof.Proof.Gen.ReferenceIdeal.Read
import proofs.«107761_j35055523070528_2_alg».proof.Proof.Agreement
import proofs.«107761_j35055523070528_2_alg».proof.Proof.FiniteInputs
import Idealize.ShloMosaic.Adequacy
import Idealize.ShloMosaic.Init

noncomputable section

namespace Cert.Proof

open Idealize.ShloMosaic Idealize.ShloMosaic.TcCoe Idealize.SL.Sem

section claims

variable [hKernel : Cert.Kernel.Facts] [hKernelIdeal : Cert.KernelIdeal.Facts] [hReferenceIdeal : Cert.ReferenceIdeal.Facts]
  [hPre_finite_inputs : Cert.Pre_finite_inputs.Facts]

/-- The kernel as printed runs, and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs, and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On finite inputs the kernel's average of scores from raw power sums and the reference's average of scores from
    standardised values are one extended real. -/
theorem algebraic : Cert.algebraic_KernelIdeal_ReferenceIdeal := by
  intro m ρ m' ρ' hpre hagree
  refine ⟨fun c => Cert.KernelIdeal.ArrayValue.average (Cert.KernelIdeal.ArrayValue.lossArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := Cert.FiniteInputs.real_entries _ _ (hpre c)
  rw [Cert.ReferenceIdeal.Read.val_main_v47_eq, (hagree c).1, (hagree c).2]
  exact (Cert.Agreement.result_eq _ _ h0 h1).symm

end claims

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
